-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768 : Shape := ⟨1, ![32768]⟩
abbrev S32768x4096 : Shape := ⟨2, ![32768, 4096]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x4096 : S_.BroadcastsInDim S32768x4096 (![] : Fin 0 → Fin S32768x4096.rank)
  reducesTo_S32768x4096_S_d0_1 : S32768x4096.ReducesTo [0, 1] S_

variable [Facts]

def fn {F : FTy → Type} [FloatOps F] (main_arg0 : FVec F S32768 .f32) (main_arg1 : FVec F S32768x4096 .f32) : IVec S_ 1 :=
  let main_v0 : FVec F S32768 .f32 := Host.absf main_arg0
  let main_cst : FVec F S_ .f32 := constant S_ .f32 0x7F800000#32
  let main_v1 : FVec F S32768 .f32 := broadcastInDim S32768 ![] bcast_S_S32768 main_cst
  let main_v2 : IVec S32768 1 := cmpf .olt main_v0 main_v1
  let main_c : IVec S_ 1 := constantI S_ 1 1#1
  let main_v3 : IVec S_ 1 := (fun x v => Host.reduce IntOp.andi x v reducesTo_S32768_S_d0 h_S_) main_v2 main_c
  let main_v4 : FVec F S32768x4096 .f32 := Host.absf main_arg1
  let main_cst_0 : FVec F S_ .f32 := constant S_ .f32 0x7F800000#32
  let main_v5 : FVec F S32768x4096 .f32 := broadcastInDim S32768x4096 ![] bcast_S_S32768x4096 main_cst_0
  let main_v6 : IVec S32768x4096 1 := cmpf .olt main_v4 main_v5
  let main_c_1 : IVec S_ 1 := constantI S_ 1 1#1
  let main_v7 : IVec S_ 1 := (fun x v => Host.reduce IntOp.andi x v reducesTo_S32768x4096_S_d0_1 h_S_) main_v6 main_c_1
  let main_v8 : IVec S_ 1 := andi main_v3 main_v7
  main_v8
-- ==== Kernel.lean ====
abbrev S32768 : Shape := ⟨1, ![32768]⟩
abbrev S32768x4096 : Shape := ⟨2, ![32768, 4096]⟩
abbrev S32768x1 : Shape := ⟨2, ![32768, 1]⟩
abbrev S512x1 : Shape := ⟨2, ![512, 1]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S32768, .f32⟩
  | .hbm, ⟨1, _⟩ => ⟨S32768x4096, .f32⟩
  | .hbm, ⟨2, _⟩ => ⟨S32768x1, .f32⟩
  | .hbm, ⟨3, _⟩ => ⟨S32768x4096, .f32⟩
  | .local _ .vmem, ⟨0, _⟩ => ⟨S512x1, .f32⟩
  | .local _ .vmem, ⟨1, _⟩ => ⟨S512x1, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768_S32768x1 : S32768.ShapeCasts S32768x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  broadcasts_S512x1_S512x4096 : S512x1.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .f32 = 32 ∨ (Rect.block (s := S32768x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .f32 = 32 ∨ (Rect.block (s := S32768x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S32768x4096.size a
  hwx0_2 : ∀ i : grid0.Coords, EltTy.bits .f32 = 32 ∨ (Rect.block (s := S32768x4096) S512x4096.size (cc0_transform_2 i) (hinb0_2 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768 : Shape := ⟨1, ![32768]⟩
abbrev S32768x4096 : Shape := ⟨2, ![32768, 4096]⟩
abbrev S32768x1 : Shape := ⟨2, ![32768, 1]⟩

abbrev nBuf : Space → Nat
  | .hbm => 5
  | .vmem => 0
  | .smem => 0
  | _ => 0

abbrev bufTy : (tb : Table) → Fin (tcTables nBuf tb) → BufTy
  | .hbm, ⟨0, _⟩ => ⟨S32768, .f32⟩
  | .hbm, ⟨1, _⟩ => ⟨S32768x4096, .f32⟩
  | .hbm, ⟨2, _⟩ => ⟨S32768x1, .f32⟩
  | .hbm, ⟨3, _⟩ => ⟨S32768x4096, .f32⟩
  | .hbm, ⟨4, _⟩ => ⟨S32768x4096, .f32⟩
  | _, _ => ⟨S32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  bcast_S32768x1_S32768x4096_0_1 : S32768x1.BroadcastsInDim S32768x4096 (![0, 1] : Fin 2 → Fin S32768x4096.rank)

variable [Facts₀]

class Facts : Prop extends Facts₀ where

variable [Facts]
-- ==== Proof.RowScale.lean ====
/-
  Scaling the rows of a matrix by the entries of a vector.

  For a vector `a` of length 32768 and a matrix `b` with 32768 rows and 4096 columns, the row-scaled matrix has
  at row `r` and column `k` the product `a r * b (r, k)`: row `r` of `b` multiplied through by the single number
  `a r`. This is the product `diag(a) · b` written without its zero terms. Nothing about the arithmetic is used:
  the definition is stated for any interpretation of the float operations, and both programs of this certificate are
  shown to compute it entry by entry, each multiplying the same two numbers in the same order.
-/
import Idealize.ShloMosaic.Lib.ValueIdx

noncomputable section

namespace Cert.RowScale

open Idealize.ShloMosaic

/-- Vectors with one entry per row of the matrix. -/
abbrev Rows : Shape := ⟨1, ![32768]⟩
/-- The matrix: 32768 rows, 4096 columns. -/
abbrev Mat : Shape := ⟨2, ![32768, 4096]⟩

/-- The row of a matrix position, as a position of the vector. -/
abbrev rowOf (i : Mat.Idx) : Rows.Idx := ValueIdx.ix1 (⟨(i 0).val, (i 0).isLt⟩ : Fin 32768)

/-- The row-scaled matrix: entry `(r, k)` is `a r` times entry `(r, k)` of `b`. -/
def rowScaled {F : FTy → Type} [FloatOps F] (a : Rows.Idx → Elt F .f32) (b : Mat.Idx → Elt F .f32) :
    Mat.Idx → Elt F .f32 :=
  fun i => FloatOps.mulf (a (rowOf i)) (b i)

/-- An entry of the row-scaled matrix. -/
theorem rowScaled_apply {F : FTy → Type} [FloatOps F] (a : Rows.Idx → Elt F .f32) (b : Mat.Idx → Elt F .f32)
    (i : Mat.Idx) : rowScaled a b i = FloatOps.mulf (a (rowOf i)) (b i) := rfl

end Cert.RowScale

end
-- ==== Proof.ReferenceRowScale.lean ====
/-
  The reference computes the row-scaled matrix.

  The reference first writes the vector as a column (a matrix of one column whose entry `(r, 0)` is `a r`), then
  repeats that column across all 4096 columns (entry `(r, k)` is the column's entry `(r, 0)`), and multiplies the
  result entry by entry with `b`. Reading the product at `(r, k)` and following the two repetitions back to the
  vector gives `a r * b (r, k)`.
-/
import proofs.«158165_j5909874999875_1_alg».proof.Proof.Gen.ReferenceIdeal.Read
import proofs.«158165_j5909874999875_1_alg».proof.Proof.RowScale

noncomputable section

namespace Cert.ReferenceIdeal.RowScale

open Cert.ReferenceIdeal Cert.ReferenceIdeal.Gen Cert.ReferenceIdeal.Read Idealize.ShloMosaic Cert.RowScale

variable {F : FTy → Type} [FloatOps F]

/-- Following the two repetitions back from matrix position `i` lands on the vector's entry for `i`'s row. -/
theorem back_to_row (i : S32768x4096.Idx) : idx_main_v0 (idx_main_v1 i) = rowOf i :=
  funext fun a => Fin.ext (by match a with | ⟨0, _⟩ => rfl)

/-- The reference's result, as the run states it, is the row-scaled matrix of its two arguments. -/
theorem result_eq (a : (⟨S32768, .f32⟩ : BufTy).Contents (Elt F)) (b : (⟨S32768x4096, .f32⟩ : BufTy).Contents (Elt F)) :
    mulf (broadcastInDim S32768x4096 ![0, 1] bcast_S32768x1_S32768x4096_0_1
        (broadcastInDim S32768x1 ![0] bcast_S32768_S32768x1_0 a)) b
      = rowScaled (F := F) a b := by
  rw [val_main_v2_eq]
  funext i
  rw [val_main_v2_apply, val_main_v1_apply, val_main_v0_apply, back_to_row, rowScaled_apply]

end Cert.ReferenceIdeal.RowScale

end
-- ==== Proof.KernelColumn.lean ====
/-
  The column the kernel's region reads.

  Before the region starts, the kernel's program writes the vector `a` as a matrix of one column, keeping the
  entries in order: position `(r, 0)` of the column holds `a r`. The region's first window is cut from this column,
  so every block it loads is a run of consecutive entries of `a`.
-/
import proofs.«158165_j5909874999875_1_alg».proof.Proof.Gen.KernelIdeal.Frame
import proofs.«158165_j5909874999875_1_alg».proof.Proof.RowScale
import Idealize.ShloMosaic.Lib.Pipeline.Value
import Idealize.ShloMosaic.Lib.StableHlo.Run

noncomputable section

namespace Cert.KernelIdeal.RowScale

open Cert.KernelIdeal Cert.KernelIdeal.Gen Idealize.ShloMosaic Idealize.ShloMosaic.TcCoe Idealize.SL.Sem
open Idealize.ShloMosaic.StableHlo Cert.RowScale

variable {F : FTy → Type} [FloatOps F]
variable (m : (ℓ : Loc nD τ sig) → Buf (Elt F) ℓ)

/-- When the region starts, the column array holds the vector's entries in order, re-shaped to one column. -/
theorem column_eq (c : Dev nD) :
    (V m c main_v0 : S32768x1.Idx → Elt F .f32)
      = shapeCast S32768x1 (m ((c : Thread nD τ).loc main_arg0)) shapeCasts_S32768_S32768x1 := by
  dsimp only [V, hostOps0]
  after_results
  rfl

/-- Position `(r, 0)` of the column holds the vector's entry `r`. -/
theorem column_apply (c : Dev nD) (j : S32768x1.Idx) :
    (V m c main_v0 : S32768x1.Idx → Elt F .f32) j
      = m ((c : Thread nD τ).loc main_arg0) (ValueIdx.ix1 (⟨(j 0).val, (j 0).isLt⟩ : Fin 32768)) := by
  rw [column_eq]
  refine shapeCast_apply (s := S32768) (t := S32768x1) _ _ j _ ?_
  refine (Shape.rowMajor_val_one (d := ![32768]) _).trans ?_
  refine Eq.trans ?_ (Shape.rowMajor_val_two (d := ![32768, 1]) j).symm
  have h1 : (j 1).val < 1 := (j 1).isLt
  show (j 0).val = (j 0).val * 1 + (j 1).val
  omega

end Cert.KernelIdeal.RowScale

end
-- ==== Proof.KernelRowScale.lean ====
/-
  The kernel computes the row-scaled matrix.

  The kernel walks the matrix in 64 bands of 512 consecutive rows. At band `t` it loads rows `512 t … 512 t + 511` of
  the column (the vector's entries for those rows) and the same rows of `b`, repeats each loaded entry of the column
  across the 4096 columns, multiplies entry by entry, and writes the product back as the same band of the result. So
  what band `t` writes is band `t` of the row-scaled matrix; the 64 bands together contain every row, the band of row
  `r` being `r / 512`; hence the result array ends as the row-scaled matrix, whole.
-/
import proofs.«158165_j5909874999875_1_alg».proof.Proof.Gen.KernelIdeal.Value
import proofs.«158165_j5909874999875_1_alg».proof.Proof.KernelColumn

noncomputable section

namespace Cert.KernelIdeal.RowScale

open Cert.KernelIdeal Cert.KernelIdeal.Gen Idealize.ShloMosaic Idealize.ShloMosaic.TcCoe Idealize.SL.Sem
open Idealize.ShloMosaic.Pipeline (Dat)
open Cert.RowScale

variable {F : FTy → Type} [FloatOps F]
variable (m : (ℓ : Loc nD τ sig) → Buf (Elt F) ℓ) (ρ : Dev nD → PrngReg)

/-- The body's loads and its store start at the corner of their buffers. -/
theorem corner : (![0, 0] : Fin 2 → Nat) = fun _ => 0 := funext fun a => by fin_cases a <;> rfl

/-- Where the three windows sit at band `t`, decided over the 64 bands: all three are at band `t` of their rows; the
    column's window and the two matrices' windows are each as wide as their arrays, so their column block is `0`. -/
theorem bands : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = win0_2.index t (1 : Fin 2)
    ∧ win0_2.index t (0 : Fin 2) ≤ 63
    ∧ win0_2.index t (1 : Fin 2) = 0 :=
  (by decide +kernel : ∀ t : Fin grid0.N, _)

/-- Every one of the 64 bands is some grid point's. -/
theorem band_of : ∀ q : Fin 64, ∃ t : Fin cfg0.N, win0_2.index t = ![q.val, 0] :=
  (by decide +kernel : ∀ q : Fin 64, ∃ t : Fin grid0.N, win0_2.index t = ![q.val, 0])

/-- What the body leaves in its output buffer, entry by entry, from the two blocks it loaded: the column block's
    entry for the row, times the matrix block's entry at the same place. -/
theorem body_entry (P0 : Vec F S512x1 .f32) (P1 : Vec F S512x4096 .f32) (y : S512x4096.Idx) :
    out0_2 P0 P1 y = FloatOps.mulf (P0 (Value.ix2_0 y)) (P1 (Value.ix2_1 y)) := by
  unfold out0_2
  rw [View.ld_unit_zero (S := S512x1) corner, View.ld_unit_zero (S := S512x4096) corner]
  exact Value.canon2_eq P0 P1 y

/-- WHAT BAND `t` WRITES BACK is band `t` of the row-scaled matrix of the two arguments. -/
theorem flushed_eq (c : Dev nD) (t : Fin cfg0.N) :
    (dats m 0 c).flushed 2 t = ((cfg0.win 2).blk t).view.read (Elt F)
      (rowScaled (m ((c : Thread nD τ).loc main_arg0)) (m ((c : Thread nD τ).loc main_arg1))) := by
  rw [Value.flushed2]
  funext y
  refine (body_entry (iblk m c 0 t) (iblk m c 1 t) y).trans ?_
  show FloatOps.mulf (V m c main_v0 (((cfg0.win 0).blk t).view.emb (Value.ix2_0 y)))
        (V m c main_arg1 (((cfg0.win 1).blk t).view.emb (Value.ix2_1 y)))
      = FloatOps.mulf (m ((c : Thread nD τ).loc main_arg0) (rowOf (((cfg0.win 2).blk t).view.emb y)))
        (m ((c : Thread nD τ).loc main_arg1) (((cfg0.win 2).blk t).view.emb y))
  obtain ⟨e0, e1, e2, e3, e4, e5⟩ := bands t
  have hy0 : (y 0).val < 512 := (y 0).isLt
  have hy1 : (y 1).val < 4096 := (y 1).isLt
  -- the column block's entry for the row is the vector's entry for that row of the whole matrix
  have hcol : (V m c main_v0 : S32768x1.Idx → Elt F .f32) (((cfg0.win 0).blk t).view.emb (Value.ix2_0 y))
      = m ((c : Thread nD τ).loc main_arg0) (rowOf (((cfg0.win 2).blk t).view.emb y)) := by
    refine (column_apply m c _).trans (congrArg _ (congrArg (ValueIdx.ix1 (n := 32768)) (Fin.ext ?_)))
    show win0_0.index t (0 : Fin 2) * 512 + 1 * (y 0).val = win0_2.index t (0 : Fin 2) * 512 + 1 * (y 0).val
    omega
  -- the matrix block's entry is the matrix's entry at the same place of the band
  have hmat : (V m c main_arg1 : S32768x4096.Idx → Elt F .f32) (((cfg0.win 1).blk t).view.emb (Value.ix2_1 y))
      = m ((c : Thread nD τ).loc main_arg1) (((cfg0.win 2).blk t).view.emb y) := by
    rw [V_main_arg1]
    refine congrArg _ (funext fun a => Fin.ext ?_)
    match a with
    | ⟨0, _⟩ =>
      show win0_1.index t (0 : Fin 2) * 512 + 1 * (y 0).val = win0_2.index t (0 : Fin 2) * 512 + 1 * (y 0).val
      omega
    | ⟨1, _⟩ =>
      show win0_1.index t (1 : Fin 2) * 4096 + 1 * (y 1).val = win0_2.index t (1 : Fin 2) * 4096 + 1 * (y 1).val
      omega
  rw [hcol, hmat]

/-- A position of the result array is in band `t`'s block exactly when each of its coordinates is in the block's
    range: rows `512 · band … 512 · band + 511`, all 4096 columns. -/
theorem mem_band (t : Fin cfg0.N) (i : S32768x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- THE BANDS CONTAIN EVERY POSITION: row `r` lies in band `r / 512`, and a band is as wide as the matrix. -/
theorem covered (i : S32768x4096.Idx) :
    ∃ t : Fin cfg0.N, (cfg0.win 2).flush t = true ∧ i ∈ ((cfg0.win 2).blk t).view.set := by
  have hi0 : (i 0).val < 32768 := (i 0).isLt
  have hi1 : (i 1).val < 4096 := (i 1).isLt
  obtain ⟨t, ht⟩ := band_of ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_band]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-- THE RESULT ARRAY after the run is the row-scaled matrix of the two arguments, whole. -/
theorem final (c : Dev nD) :
    (dats m 0 c).arrAt 2 cfg0.N
      = rowScaled (m ((c : Thread nD τ).loc main_arg0)) (m ((c : Thread nD τ).loc main_arg1)) :=
  (dats m 0 c).arrAt_eq_of_cover 2 _ (fun t _ => flushed_eq m c t) covered

/-- The kernel's run: every weakly fair execution ends with the result array at the row-scaled matrix of the two
    arguments, and the arguments as they were. -/
theorem run : θ_run defs (onTc (τ := τ) (main (F := F))) ⟨m, fun _ => 0, ρ⟩ fun r => ∀ c : Dev nD,
      r.2.mem ((c : Thread nD τ).loc main_v1)
        = rowScaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RowScale

end
-- ==== Proof.lean ====
/-
  The kernel and the reference both compute the row-scaled matrix.

  The two arguments are a vector `a` with 32768 entries and a matrix `b` with 32768 rows and 4096 columns; the result
  is the matrix whose entry `(r, k)` is `a r * b (r, k)` (Proof/RowScale.lean). The reference repeats `a` along the
  columns and multiplies entry by entry (Proof/ReferenceRowScale.lean). The kernel re-shapes `a` to one column
  (Proof/KernelColumn.lean) and computes the product band by band, 512 rows at a time, the 64 bands filling the matrix
  (Proof/KernelRowScale.lean). Both multiply the same two numbers in the same order at every entry, so the results are
  equal for every interpretation of the float multiplication, in particular over the extended reals, and the
  finiteness of the inputs is never used. The idealized kernel is the kernel's own text, so there is nothing to
  preserve beyond that.
-/
import proofs.«158165_j5909874999875_1_alg».proof.Defs
import proofs.«158165_j5909874999875_1_alg».proof.Proof.Gen.Kernel
import proofs.«158165_j5909874999875_1_alg».proof.Proof.Gen.Kernel.Skeleton
import proofs.«158165_j5909874999875_1_alg».proof.Proof.Gen.Kernel.Launch
import proofs.«158165_j5909874999875_1_alg».proof.Proof.Gen.Kernel.Points
import proofs.«158165_j5909874999875_1_alg».proof.Proof.Gen.Kernel.Frame
import proofs.«158165_j5909874999875_1_alg».proof.Proof.Gen.KernelIdeal
import proofs.«158165_j5909874999875_1_alg».proof.Proof.Gen.KernelIdeal.Skeleton
import proofs.«158165_j5909874999875_1_alg».proof.Proof.Gen.KernelIdeal.Launch
import proofs.«158165_j5909874999875_1_alg».proof.Proof.Gen.KernelIdeal.Points
import proofs.«158165_j5909874999875_1_alg».proof.Proof.Gen.KernelIdeal.Frame
import proofs.«158165_j5909874999875_1_alg».proof.Proof.Gen.ReferenceIdeal
import proofs.«158165_j5909874999875_1_alg».proof.Proof.Gen.Pre_finite_inputs
import proofs.«158165_j5909874999875_1_alg».proof.Proof.Gen.KernelIdeal.Value
import proofs.«158165_j5909874999875_1_alg».proof.Proof.Gen.ReferenceIdeal.Run
import proofs.«158165_j5909874999875_1_alg».proof.Proof.Gen.ReferenceIdeal.Read
import Idealize.ShloMosaic.Adequacy
import Idealize.ShloMosaic.Init

import proofs.«158165_j5909874999875_1_alg».proof.Proof.ReferenceRowScale
import proofs.«158165_j5909874999875_1_alg».proof.Proof.KernelRowScale

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories that agree on `a` and `b`, the idealized kernel and the idealized
    reference both end with the row-scaled matrix of `a` and `b`. -/
theorem algebraic : Cert.algebraic_KernelIdeal_ReferenceIdeal := by
  intro m ρ m' ρ' _ hagree
  refine ⟨_, Cert.KernelIdeal.RowScale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RowScale.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
